-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S128x256 : Shape := ⟨2, ![128, 256]⟩
abbrev S128 : Shape := ⟨1, ![128]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S128 .f32) (main_arg5 : FVec F S1600000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x256 .f32) (main_arg1 : FVec F S128x256 .f32) (main_arg2 : FVec F S128 .f32) (main_arg3 : FVec F S128 .f32) (main_arg4 : FVec F S128 .f32) (main_arg5 : FVec F S1600000 .f32) (main_arg6 : IVec S1600000 32) (main_arg7 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x256 : Shape := ⟨2, ![100000, 256]⟩
abbrev S128x256 : Shape := ⟨2, ![128, 256]⟩
abbrev S128 : Shape := ⟨1, ![128]⟩
abbrev S1600000 : Shape := ⟨1, ![1600000]⟩
abbrev S256x128 : Shape := ⟨2, ![256, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 48
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S128x256, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S256x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  bcast_S128_S1x128_1 : S128.BroadcastsInDim S1x128 (![1] : Fin 1 → Fin S1x128.rank)
  broadcasts_S1x128_S5000x128 : S1x128.Broadcasts S5000x128
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S128x256 : Shape := ⟨2, ![128, 256]⟩
abbrev S128 : Shape := ⟨1, ![128]⟩
abbrev S1600000 : Shape := ⟨1, ![1600000]⟩
abbrev S256x128 : Shape := ⟨2, ![256, 128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S128x256, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S256x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  transposes_S128x256_S256x128_1_0 : S128x256.Transposes [1, 0] S256x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.NamedRun.lean ====
/-
  The idealized program's run with its result array named.

  @main is three pipelined regions among three stretches of host operations. Its run ends in a state whose
  unscoped buffers hold the contents at the last segment boundary: the fold of the host stretches and of the
  regions' write-backs over the launch memory (`W6`). Here that final state is read at the result array
  `main_v32` as well as at the eight arguments: the result ends at `W6` read at `main_v32`, and every
  argument ends as launched. What `W6` holds at `main_v32` — the last region's write-backs, block by
  block — is opened in the modules that import this one.
-/
import proofs.«110681_j61323543053000_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds the last
    boundary's contents at `main_v32`, and each argument array holds what it was launched with. -/
theorem run_named : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.Project.lean ====
/-
  The first region: the projection `seq · Wᵀ`, one block of 5000 rows per grid point.

  Point `t` reads rows `5000 t … 5000 t + 4999` of `X` ([100000, 256]) and the whole of `Wt` ([256, 128]),
  rounds both to bf16 (the identity on the extended reals) and multiplies them on the matrix unit into a zero
  accumulator: entry `(r, j)` of the block is `∑ k, X (5000 t + r, k) · Wt (k, j)`. Every point writes its block
  back and the 20 blocks tile the [100000, 128] result, which therefore ends as the whole product `proj X Wt`.
-/
import proofs.«110681_j61323543053000_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product, index by index: row `i 0` of `X` against column `i 1` of `Wt`. -/
def proj (X : S100000x256.Idx → Elt Ideal .f32) (Wt : S256x128.Idx → Elt Ideal .f32) : S100000x128.Idx → Elt Ideal .f32 :=
  fun i => ∑ k : Fin 256, X (ix2 ⟨(i 0).val, idx2_lt0 i⟩ k) * Wt (ix2 k ⟨(i 1).val, idx2_lt1 i⟩)

/-- The block product's dimension numbers. -/
abbrev dd : DotDims S5000x256 S256x128 S5000x128 := dot_S5000x256_S256x128_S5000x128_1_0_0_1_n_n

theorem lhs0 (i : S5000x128.Idx) (q : dd.contr.Idx) : (dd.lhsIdx i q 0).val = (i 0).val := by
  unfold DotDims.lhsIdx
  rw [dif_neg (show ¬(0 : Fin S5000x256.rank) ∈ dd.lhsBatch by decide), dif_pos (show (0 : Fin S5000x256.rank) ∈ dd.lhsNonContracting by decide)]
  rfl
theorem lhs1 (i : S5000x128.Idx) (q : dd.contr.Idx) : (dd.lhsIdx i q 1).val = (q ⟨0, by decide⟩).val :=
  dd.lhsIdx_val_of_single rfl i q
theorem rhs0 (i : S5000x128.Idx) (q : dd.contr.Idx) : (dd.rhsIdx i q 0).val = (q ⟨0, by decide⟩).val :=
  dd.rhsIdx_val_of_single rfl i q
theorem rhs1 (i : S5000x128.Idx) (q : dd.contr.Idx) : (dd.rhsIdx i q 1).val = (i 1).val := by
  unfold DotDims.rhsIdx
  rw [dif_neg (show ¬(1 : Fin S256x128.rank) ∈ dd.rhsBatch by decide), dif_pos (show (1 : Fin S256x128.rank) ∈ dd.rhsNonContracting by decide)]
  rfl

/-- The body's one stored value at entry `(p, q)` of the block: row `p` of the row block against column `q`
    of the weight block. -/
theorem pay_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  simp only [shapeCast_self]
  refine (Ideal.matmul_constant_zero_apply dd none (truncf .bf16 x0 bitsLt_bf16_f32) (truncf .bf16 x1 bitsLt_bf16_f32) (ix2 p q)).trans ?_
  rw [← Equiv.sum_comp (contrEquiv1 dd 256 rfl rfl).symm]
  refine Finset.sum_congr rfl fun k _ => ?_
  have hk := contrEquiv1_symm_val dd 256 rfl rfl k
  have el : dd.lhsIdx (ix2 p q) ((contrEquiv1 dd 256 rfl rfl).symm k) = ix2 p k := funext fun a => Fin.ext (by
    match a with
    | ⟨0, _⟩ => exact lhs0 _ _
    | ⟨1, _⟩ => exact (lhs1 _ _).trans hk)
  have er : dd.rhsIdx (ix2 p q) ((contrEquiv1 dd 256 rfl rfl).symm k) = ix2 k q := funext fun a => Fin.ext (by
    match a with
    | ⟨0, _⟩ => exact (rhs0 _ _).trans hk
    | ⟨1, _⟩ => exact rhs1 _ _)
  rw [el, er]
  rfl

/-- The same at a block index `y` that sits at array index `i`. -/
theorem pay_at (x0 : Vec Ideal S5000x256 .f32) (x1 : Vec Ideal S256x128 .f32)
    (X : S100000x256.Idx → Elt Ideal .f32) (Wt : S256x128.Idx → Elt Ideal .f32)
    (y : S5000x128.Idx) (i : S100000x128.Idx) (hcol : (y 1).val = (i 1).val)
    (h0 : ∀ k : Fin 256, x0 (ix2 ⟨(y 0).val, idx2_lt0 y⟩ k) = X (ix2 ⟨(i 0).val, idx2_lt0 i⟩ k)) (h1 : x1 = Wt) :
    k0_pay1 x0 x1 y = proj X Wt i := by
  subst h1
  obtain ⟨p, q, rfl⟩ : ∃ (p : Fin 5000) (q : Fin 128), y = ix2 p q := ⟨y 0, y 1, eq_ix2 y⟩
  rw [pay_apply]
  unfold proj
  have e : (⟨(i 1).val, idx2_lt1 i⟩ : Fin 128) = q := Fin.ext hcol.symm
  rw [e]
  exact Finset.sum_congr rfl fun k _ => by rw [← h0 k]

/-- The printed index maps over the grid: the row-block windows (input 0, output 2) sit at block `(t, 0)`, the
    weight window at block `(0, 0)`. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- The weight window's block IS its array. -/
theorem iblk_w (c : Dev nD) (t : Fin cfg0.N) : (iblk0 V c 1 t : Vec Ideal S256x128 .f32) = V c main_v0 := by
  obtain ⟨-, -, -, -, e4, e5⟩ := idx_facts t
  funext y
  show V c main_v0 (((cfg0.win 1).blk t).view.emb y) = V c main_v0 y
  refine congrArg _ (funext fun a => Fin.ext ?_)
  match a with
  | ⟨0, _⟩ => show win0_1.index t (0 : Fin 2) * 256 + 1 * (y 0).val = (y 0).val; rw [e4]; omega
  | ⟨1, _⟩ => show win0_1.index t (1 : Fin 2) * 128 + 1 * (y 1).val = (y 1).val; rw [e5]; omega

/-- WHAT POINT `t` WRITES BACK is block `t` of the whole product of the arrays as the region finds them. -/
theorem flushed_eq (c : Dev nD) (t : Fin cfg0.N) :
    (dat0 V c).flushed 2 t
      = ((cfg0.win 2).blk t).view.read (Elt Ideal) (proj (V c main_arg0) (V c main_v0)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, -, -⟩ := idx_facts t
  funext j
  refine pay_at _ _ (V c main_arg0) (V c main_v0) j (((cfg0.win 2).blk t).view.emb j) ?_ ?_ (iblk_w V c t)
  · show (j 1).val = win0_2.index t (1 : Fin 2) * 128 + 1 * (j 1).val
    rw [e3]; omega
  · intro k
    show V c main_arg0 (((cfg0.win 0).blk t).view.emb (ix2 ⟨(j 0).val, idx2_lt0 j⟩ k)) = V c main_arg0 _
    refine congrArg _ (funext fun a => Fin.ext ?_)
    match a with
    | ⟨0, _⟩ => show win0_0.index t (0 : Fin 2) * 5000 + 1 * (j 0).val = win0_2.index t (0 : Fin 2) * 5000 + 1 * (j 0).val; rw [e0, e2]
    | ⟨1, _⟩ => show win0_0.index t (1 : Fin 2) * 256 + 1 * k.val = k.val; rw [e1]; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

/-- Row `r` is in the block of point `r / 5000`: the 20 blocks tile the array. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, e2, e3, -, -⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e2, ht]; omega
  | ⟨1, _⟩ => show win0_2.index t (1 : Fin 2) * 128 ≤ (i 1).val ∧ (i 1).val < win0_2.index t (1 : Fin 2) * 128 + 128; rw [e3]; omega

/-- THE PROJECTED ARRAY after the region: the whole product of the two arrays the region found. -/
theorem final (c : Dev nD) : (dat0 V c).arrAt 2 cfg0.N = proj (V c main_arg0) (V c main_v0) :=
  (dat0 V c).arrAt_eq_of_cover 2 _ (fun t _ => flushed_eq V c t) cover

end Cert.KernelIdeal.Proj

end
-- ==== Proof.Blocks.lean ====
/-
  A sum over the 100000 rows taken as 20 consecutive blocks of 5000 rows is the sum over all rows: the rows
  `5000 t + r` (`t < 20`, `r < 5000`) are each row exactly once. This holds in any commutative monoid, so on the
  extended reals with no finiteness condition.
-/
import Mathlib.Algebra.BigOperators.Fin
import Mathlib.Logic.Equiv.Fin.Basic

namespace Cert.Blocks

theorem sum_blocks {M : Type*} [AddCommMonoid M] (f : Fin 100000 → M) :
    ∑ t : Fin 20, ∑ r : Fin 5000, f ⟨5000 * t.val + r.val, by have := t.isLt; have := r.isLt; omega⟩
      = ∑ k : Fin 100000, f k := by
  have e : ∑ k : Fin 100000, f k = ∑ p : Fin 20 × Fin 5000, f (finProdFinEquiv p) :=
    ((finProdFinEquiv (m := 20) (n := 5000)).sum_comp f).symm
  rw [e, Fintype.sum_prod_type]
  refine Finset.sum_congr rfl fun t _ => Finset.sum_congr rfl fun r _ => congrArg f (Fin.ext ?_)
  show 5000 * t.val + r.val = r.val + 5000 * t.val
  omega

/-- The same with the outer sum over `Finset.range 20`, the form a fold over the grid's points leaves. -/
theorem sum_range_blocks {M : Type*} [AddCommMonoid M] (f : Fin 100000 → M) (g : ℕ → M)
    (hg : ∀ (s : ℕ) (hs : s < 20), g s = ∑ r : Fin 5000, f ⟨5000 * s + r.val, by have := r.isLt; omega⟩) :
    ∑ s ∈ Finset.range 20, g s = ∑ k : Fin 100000, f k := by
  rw [Finset.sum_range, ← sum_blocks f]
  exact Finset.sum_congr rfl fun t _ => hg t.val t.isLt

end Cert.Blocks
-- ==== Proof.Stats.lean ====
/-
  The middle region: the column sums and the column sums of squares of the aggregated features, accumulated
  over the 20 row blocks.

  Both outputs are [1, 128] rows whose block never moves. At point 0 the body zeroes them; at every point it adds,
  into each, the lane sum over the 5000 rows of its row block — of the entries for the first output, of their
  squares for the second. The outputs are written back once, after the last point. What a staging buffer holds
  after point `n` is therefore a fold over the points `0 … n`: zero plus the sum of the blocks' lane sums. After
  point 19 the blocks `5000 t + r` have run through every row once, so the two arrays end as the column sum
  `colSum A` and the column sum of squares `colSumSq A` of the [100000, 128] array `A` the region found.
-/
import proofs.«110681_j61323543053000_1_alg».proof.Proof.Gen.KernelIdeal.Frame
import proofs.«110681_j61323543053000_1_alg».proof.Proof.Blocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Stats

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.Tactic Idealize.ShloMosaic.Pipeline

theorem hz : (![0, 0] : Fin 2 → Nat) = fun _ => 0 := funext fun a => by fin_cases a <;> rfl

/-! ## What each case of the body leaves in the two outputs' staging buffers -/

section Cases
variable {F : FTy → Type} [FloatOps F]

/-- A later point: the first output ends at the sum payload of the row block over what it held. -/
theorem out_B1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1x128) hz, View.ld_unit_zero (S := S5000x128) hz]

/-- A later point: the second output ends at the sum-of-squares payload over what it held. -/
theorem out_B2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h2.read_unread, h3.read_unread, View.ld_unit_zero (S := S1x128) hz, View.ld_unit_zero (S := S5000x128) hz]

/-- The first point: the first output is zeroed, read back, and ends at the sum payload over the zero row. -/
theorem out_A1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

/-- The first point: the second output likewise, over its own zero row. -/
theorem out_A2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz, View.ld_unit_zero (S := S1x128) hz]

end Cases

/-! ## The two payloads at an index -/

/-- Column `j` of a [1, 128] row. -/
abbrev row1 (j : Fin 128) : S1x128.Idx := ix2 (0 : Fin 1) j

/-- Every index of a [1, 128] row is `row1` of its column. -/
theorem eq_row1 (i : S1x128.Idx) : i = row1 ⟨(i 1).val, idx2_lt1 i⟩ := by
  funext a
  match a with
  | ⟨0, _⟩ => exact Fin.ext (by have := idx2_lt0 i; show (i 0).val = 0; omega)
  | ⟨1, _⟩ => rfl

/-- The lane reduction over the rows reads, at column `q` and row `k`, entry `(k, q)`. -/
theorem lift0 (q : Fin 128) (k : Fin (S5000x128.size 0)) :
    reduces_S5000x128_S128.lift (ix1 q) k = ix2 (⟨k.val, k.isLt⟩ : Fin 5000) q := by
  funext a
  apply Fin.ext
  match a with
  | ⟨0, _⟩ => rfl
  | ⟨1, _⟩ => rfl

/-- The zero rows the first point stores. -/
theorem zero1 (i : S1x128.Idx) : k1_pay1 (F := Ideal) i = 0 := by
  unfold k1_pay1
  exact Ideal.ofBits_zero_f32
theorem zero2 (i : S1x128.Idx) : k1_pay2 (F := Ideal) i = 0 := by
  unfold k1_pay2
  exact Ideal.ofBits_zero_f32

/-- The sum payload at column `q`: what the row held plus the sum of the row block's column `q`. -/
theorem sum_pay (x : Vec Ideal S5000x128 .f32) (acc : Vec Ideal S1x128 .f32) (q : Fin 128) :
    k1_pay4 x acc (row1 q) = acc (row1 q) + ∑ r : Fin 5000, x (ix2 r q) := by
  unfold k1_pay4 k1_pay3
  simp only [shapeCast_self]
  show acc (row1 q) + shapeCast S1x128 (multiReduction (F := Ideal) .add [0] S128 x 0x00000000#32 reduces_S5000x128_S128 (.inl rfl) rfl)
    shapeCasts_S128_S1x128 (ix2 (0 : Fin 1) q) = _
  rw [shapeCast_a_1a_apply]
  refine congrArg (acc (row1 q) + ·) ?_
  refine (Ideal.multiReduction_add_single x 0x00000000#32 reduces_S5000x128_S128 (.inl rfl) rfl (ix1 q)).trans ?_
  exact Finset.sum_congr rfl fun r _ => congrArg x (lift0 q r)

/-- The sum-of-squares payload at column `q`. -/
theorem sumsq_pay (x : Vec Ideal S5000x128 .f32) (acc : Vec Ideal S1x128 .f32) (q : Fin 128) :
    k1_pay5 x acc (row1 q) = acc (row1 q) + ∑ r : Fin 5000, x (ix2 r q) * x (ix2 r q) := by
  unfold k1_pay5 k1_pay3
  simp only [shapeCast_self]
  show acc (row1 q) + shapeCast S1x128 (multiReduction (F := Ideal) .add [0] S128 (mulf x x) 0x00000000#32 reduces_S5000x128_S128 (.inl rfl) rfl)
    shapeCasts_S128_S1x128 (ix2 (0 : Fin 1) q) = _
  rw [shapeCast_a_1a_apply]
  refine congrArg (acc (row1 q) + ·) ?_
  refine (Ideal.multiReduction_add_single (mulf x x) 0x00000000#32 reduces_S5000x128_S128 (.inl rfl) rfl (ix1 q)).trans ?_
  exact Finset.sum_congr rfl fun r _ => congrArg (fun y => x y * x y) (lift0 q r)

/-! ## The fold over the grid -/

variable (V : (c : Dev nD) → (b : Ref sig .tc) → Buf (Elt Ideal) ((c : Thread nD τ).loc b))

/-- The column sum and the column sum of squares of a [100000, 128] array, as [1, 128] rows. -/
def colSum (A : S100000x128.Idx → Elt Ideal .f32) : S1x128.Idx → Elt Ideal .f32 :=
  fun i => ∑ k : Fin 100000, A (ix2 k ⟨(i 1).val, idx2_lt1 i⟩)
def colSumSq (A : S100000x128.Idx → Elt Ideal .f32) : S1x128.Idx → Elt Ideal .f32 :=
  fun i => ∑ k : Fin 100000, A (ix2 k ⟨(i 1).val, idx2_lt1 i⟩) * A (ix2 k ⟨(i 1).val, idx2_lt1 i⟩)

/-- The printed index maps over the grid: the row-block window sits at block `(t, 0)`, the two outputs at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Point `n`'s row block, and the array the region found, as plain functions into the extended reals. -/
abbrev blk (c : Dev nD) (n : ℕ) (h : n < cfg1.N) : S5000x128.Idx → Elt Ideal .f32 := iblk1 V c 0 ⟨n, h⟩
abbrev arrA (c : Dev nD) : S100000x128.Idx → Elt Ideal .f32 := V c main_v14

/-- Entry `(r, q)` of point `t`'s row block is entry `(5000 t + r, q)` of the array. -/
theorem iblk_apply (c : Dev nD) (t : Fin cfg1.N) (r : Fin 5000) (q : Fin 128) :
    (iblk1 V c 0 t : Vec Ideal S5000x128 .f32) (ix2 r q)
      = arrA V c (ix2 ⟨5000 * t.val + r.val, by have := t.isLt; have hN : cfg1.N = 20 := N_1; have := r.isLt; omega⟩ q) := by
  obtain ⟨e0, e1, -, -, -, -⟩ := idx_facts t
  show V c main_v14 (((cfg1.win 0).blk t).view.emb (ix2 r q)) = V c main_v14 _
  refine congrArg _ (funext fun a => Fin.ext ?_)
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- Point `n`'s addend to the first output, at an index: the row block's column sum (zero past the grid). -/
def add1 (c : Dev nD) (n : ℕ) (i : S1x128.Idx) : Elt Ideal .f32 :=
  if h : n < cfg1.N then ∑ r : Fin 5000, blk V c n h (ix2 r ⟨(i 1).val, idx2_lt1 i⟩) else 0
/-- Point `n`'s addend to the second output: the row block's column sum of squares. -/
def add2 (c : Dev nD) (n : ℕ) (i : S1x128.Idx) : Elt Ideal .f32 :=
  if h : n < cfg1.N then ∑ r : Fin 5000, blk V c n h (ix2 r ⟨(i 1).val, idx2_lt1 i⟩) * blk V c n h (ix2 r ⟨(i 1).val, idx2_lt1 i⟩) else 0

theorem pay4_at (c : Dev nD) (n : ℕ) (h : n < cfg1.N) (acc : Vec Ideal S1x128 .f32) (i : S1x128.Idx) :
    k1_pay4 (iblk1 V c 0 ⟨n, h⟩) acc i = acc i + add1 V c n i := by
  have e := eq_row1 i
  generalize (⟨(i 1).val, idx2_lt1 i⟩ : Fin 128) = q at e
  subst e
  rw [sum_pay]
  unfold add1
  rw [dif_pos h]

theorem pay5_at (c : Dev nD) (n : ℕ) (h : n < cfg1.N) (acc : Vec Ideal S1x128 .f32) (i : S1x128.Idx) :
    k1_pay5 (iblk1 V c 0 ⟨n, h⟩) acc i = acc i + add2 V c n i := by
  have e := eq_row1 i
  generalize (⟨(i 1).val, idx2_lt1 i⟩ : Fin 128) = q at e
  subst e
  rw [sumsq_pay]
  unfold add2
  rw [dif_pos h]

/-- At the first point of the run the outputs are reset: zero, plus the block's sums. -/
theorem reset1 (c : Dev nD) (n : ℕ) (hn : n < cfg1.N) (h0 : n % 20 = 0) :
    (outsAt1 V c n hn).1 = k1_pay4 (iblk1 V c 0 ⟨n, hn⟩) (k1_pay1 (F := Ideal)) := by
  rw [show outsAt1 V c n hn = _ from outsAt1_A V c ⟨n, hn⟩ h0]
  exact out_A1 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) ((hcond1_0 ⟨n, hn⟩).mpr h0) (iblk1 V c 0 ⟨n, hn⟩)
theorem reset2 (c : Dev nD) (n : ℕ) (hn : n < cfg1.N) (h0 : n % 20 = 0) :
    (outsAt1 V c n hn).2 = k1_pay5 (iblk1 V c 0 ⟨n, hn⟩) (k1_pay2 (F := Ideal)) := by
  rw [show outsAt1 V c n hn = _ from outsAt1_A V c ⟨n, hn⟩ h0]
  exact out_A2 (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) ((hcond1_0 ⟨n, hn⟩).mpr h0) (iblk1 V c 0 ⟨n, hn⟩)

/-- At every later point each output is stepped from what the point before left. -/
theorem step1 (c : Dev nD) (n : ℕ) (hn : n + 1 < cfg1.N) (hne : ¬(n + 1) % 20 = 0) :
    (outsAt1 V c (n + 1) hn).1 = k1_pay4 (iblk1 V c 0 ⟨n + 1, hn⟩) (outsAt1 V c n (Nat.lt_of_succ_lt hn)).1 := by
  rw [show outsAt1 V c (n + 1) hn = _ from outsAt1_B V c ⟨n + 1, hn⟩ hne]
  exact out_B1 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => hne ((hcond1_0 ⟨n + 1, hn⟩).mp h)) (iblk1 V c 0 ⟨n + 1, hn⟩)
    (outsAt1 V c n (Nat.lt_of_succ_lt hn)).1 (outsAt1 V c n (Nat.lt_of_succ_lt hn)).2
theorem step2 (c : Dev nD) (n : ℕ) (hn : n + 1 < cfg1.N) (hne : ¬(n + 1) % 20 = 0) :
    (outsAt1 V c (n + 1) hn).2 = k1_pay5 (iblk1 V c 0 ⟨n + 1, hn⟩) (outsAt1 V c n (Nat.lt_of_succ_lt hn)).2 := by
  rw [show outsAt1 V c (n + 1) hn = _ from outsAt1_B V c ⟨n + 1, hn⟩ hne]
  exact out_B2 (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => hne ((hcond1_0 ⟨n + 1, hn⟩).mp h)) (iblk1 V c 0 ⟨n + 1, hn⟩)
    (outsAt1 V c n (Nat.lt_of_succ_lt hn)).1 (outsAt1 V c n (Nat.lt_of_succ_lt hn)).2

/-- The first output's buffer after the last point: zero plus the 20 blocks' column sums. -/
theorem acc1_last (c : Dev nD) (h : 19 < cfg1.N) (i : S1x128.Idx) :
    (outsAt1 V c 19 h).1 i = 0 + ∑ s ∈ Finset.range 20, add1 V c s i := by
  have e := eq_accAt (fun n hn => (outsAt1 V c n hn).1) 20
    (fun n hn => k1_pay4 (iblk1 V c 0 ⟨n, hn⟩) (k1_pay1 (F := Ideal)))
    (fun n hn acc => k1_pay4 (iblk1 V c 0 ⟨n, hn⟩) acc)
    (reset1 V c) (step1 V c) 0 19 (by decide) h
  rw [show (outsAt1 V c 19 h).1 = _ from e]
  exact accAt_add_apply _ _ (fun _ => (0 : Elt Ideal .f32)) (add1 V c) (20 * 0) 19
    (fun hb i => by rw [pay4_at, zero1])
    (fun n hn acc i _ _ => pay4_at V c n hn acc i) 19 (Nat.le_refl _) h i

/-- The second output's buffer after the last point: zero plus the 20 blocks' column sums of squares. -/
theorem acc2_last (c : Dev nD) (h : 19 < cfg1.N) (i : S1x128.Idx) :
    (outsAt1 V c 19 h).2 i = 0 + ∑ s ∈ Finset.range 20, add2 V c s i := by
  have e := eq_accAt (fun n hn => (outsAt1 V c n hn).2) 20
    (fun n hn => k1_pay5 (iblk1 V c 0 ⟨n, hn⟩) (k1_pay2 (F := Ideal)))
    (fun n hn acc => k1_pay5 (iblk1 V c 0 ⟨n, hn⟩) acc)
    (reset2 V c) (step2 V c) 0 19 (by decide) h
  rw [show (outsAt1 V c 19 h).2 = _ from e]
  exact accAt_add_apply _ _ (fun _ => (0 : Elt Ideal .f32)) (add2 V c) (20 * 0) 19
    (fun hb i => by rw [pay5_at, zero2])
    (fun n hn acc i _ _ => pay5_at V c n hn acc i) 19 (Nat.le_refl _) h i

/-- The 20 blocks run through every row once: the first output ends at the column sum; -/
theorem acc1_eq (c : Dev nD) (h : 19 < cfg1.N) : (outsAt1 V c 19 h).1 = colSum (arrA V c) := by
  funext i
  rw [acc1_last, zero_add]
  unfold colSum
  refine Cert.Blocks.sum_range_blocks (fun k => arrA V c (ix2 k ⟨(i 1).val, idx2_lt1 i⟩)) _ fun s hs => ?_
  have hN : cfg1.N = 20 := N_1
  unfold add1
  rw [dif_pos (show s < cfg1.N by omega)]
  exact Finset.sum_congr rfl fun r _ => iblk_apply V c ⟨s, by omega⟩ r _

/-- and the second at the column sum of squares. -/
theorem acc2_eq (c : Dev nD) (h : 19 < cfg1.N) : (outsAt1 V c 19 h).2 = colSumSq (arrA V c) := by
  funext i
  rw [acc2_last, zero_add]
  unfold colSumSq
  refine Cert.Blocks.sum_range_blocks
    (fun k => arrA V c (ix2 k ⟨(i 1).val, idx2_lt1 i⟩) * arrA V c (ix2 k ⟨(i 1).val, idx2_lt1 i⟩)) _ fun s hs => ?_
  have hN : cfg1.N = 20 := N_1
  unfold add2
  rw [dif_pos (show s < cfg1.N by omega)]
  exact Finset.sum_congr rfl fun r _ =>
    congrArg (fun y : Elt Ideal .f32 => y * y) (iblk_apply V c ⟨s, by omega⟩ r ⟨(i 1).val, idx2_lt1 i⟩)

/-! ## The two arrays after the region -/

/-- An output's one block is its whole array: an index inside the block is the same index of the array. -/
theorem emb1 (t : Fin cfg1.N) (j : S1x128.Idx) : ((cfg1.win 1).blk t).view.emb j = j := by
  obtain ⟨-, -, e2, e3, -, -⟩ := idx_facts t
  funext a
  apply Fin.ext
  match a with
  | ⟨0, _⟩ => show win1_1.index t (0 : Fin 2) * 1 + 1 * (j 0).val = (j 0).val; rw [e2]; omega
  | ⟨1, _⟩ => show win1_1.index t (1 : Fin 2) * 128 + 1 * (j 1).val = (j 1).val; rw [e3]; omega
theorem emb2 (t : Fin cfg1.N) (j : S1x128.Idx) : ((cfg1.win 2).blk t).view.emb j = j := by
  obtain ⟨-, -, -, -, e4, e5⟩ := idx_facts t
  funext a
  apply Fin.ext
  match a with
  | ⟨0, _⟩ => show win1_2.index t (0 : Fin 2) * 1 + 1 * (j 0).val = (j 0).val; rw [e4]; omega
  | ⟨1, _⟩ => show win1_2.index t (1 : Fin 2) * 128 + 1 * (j 1).val = (j 1).val; rw [e5]; omega

/-- At the point whose number is 19 the two buffers hold the column sum and the column sum of squares. -/
theorem acc1_at (c : Dev nD) (t : Fin cfg1.N) (h19 : t.val = 19) : (outsAt1 V c t.val t.isLt).1 = colSum (arrA V c) := by
  obtain ⟨n, hn⟩ := t
  obtain rfl : n = 19 := h19
  exact acc1_eq V c hn
theorem acc2_at (c : Dev nD) (t : Fin cfg1.N) (h19 : t.val = 19) : (outsAt1 V c t.val t.isLt).2 = colSumSq (arrA V c) := by
  obtain ⟨n, hn⟩ := t
  obtain rfl : n = 19 := h19
  exact acc2_eq V c hn

/-- An output's block read out of its staging buffer is the same function read through the block: the block is
    the whole array at zero offsets. -/
theorem cut_eq_read1 (G : S1x128.Idx → Elt Ideal .f32) (t : Fin cfg1.N) :
    (cfg1.win 1).cut (grid1.coords t) G = ((cfg1.win 1).blk t).view.read (Elt Ideal) G := by
  funext j
  show G j = G (((cfg1.win 1).blk t).view.emb j)
  rw [emb1]
theorem cut_eq_read2 (G : S1x128.Idx → Elt Ideal .f32) (t : Fin cfg1.N) :
    (cfg1.win 2).cut (grid1.coords t) G = ((cfg1.win 2).blk t).view.read (Elt Ideal) G := by
  funext j
  show G j = G (((cfg1.win 2).blk t).view.emb j)
  rw [emb2]

/-- The one write-back of the first output, after point 19, writes the column sum. -/
theorem flushed1_eq (c : Dev nD) (t : Fin cfg1.N) (hf : (cfg1.win 1).flush t = true) :
    (dat1 V c).flushed 1 t = ((cfg1.win 1).blk t).view.read (Elt Ideal) (colSum (arrA V c)) := by
  have hN : cfg1.N = 20 := N_1
  have h19 : t.val = 19 := by have := (flush1_1 t).mp hf; have := t.isLt; omega
  show (cfg1.win 1).cut (grid1.coords t) ((dat1 V c).after 1 t) = _
  rw [after1_1, acc1_at V c t h19]
  exact cut_eq_read1 _ t

theorem flushed2_eq (c : Dev nD) (t : Fin cfg1.N) (hf : (cfg1.win 2).flush t = true) :
    (dat1 V c).flushed 2 t = ((cfg1.win 2).blk t).view.read (Elt Ideal) (colSumSq (arrA V c)) := by
  have hN : cfg1.N = 20 := N_1
  have h19 : t.val = 19 := by have := (flush1_2 t).mp hf; have := t.isLt; omega
  show (cfg1.win 2).cut (grid1.coords t) ((dat1 V c).after 2 t) = _
  rw [after1_2, acc2_at V c t h19]
  exact cut_eq_read2 _ t

theorem mem_blk1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v15_0).slice (win1_1.rect t)).set ↔ _
  rw [View.set_slice_whole, Rect.mem_set_unit]
  exact Iff.rfl
theorem mem_blk2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v15_1).slice (win1_2.rect t)).set ↔ _
  rw [View.set_slice_whole, Rect.mem_set_unit]
  exact Iff.rfl

/-- The last point's block covers the whole [1, 128] array. -/
theorem cover1 (i : S1x128.Idx) :
    ∃ t : Fin cfg1.N, (cfg1.win 1).flush t = true ∧ i ∈ ((cfg1.win 1).blk t).view.set := by
  have hi0 : (i 0).val < 1 := idx2_lt0 i
  have hi1 : (i 1).val < 128 := idx2_lt1 i
  have hN : cfg1.N = 20 := N_1
  let t : Fin cfg1.N := ⟨19, by rw [hN]; omega⟩
  obtain ⟨-, -, e2, e3, -, -⟩ := idx_facts t
  have ht : t.val = 19 := rfl
  refine ⟨t, (flush1_1 t).mpr (by rw [ht]), ?_⟩
  rw [mem_blk1]
  intro a
  match a with
  | ⟨0, _⟩ => show win1_1.index t (0 : Fin 2) * 1 ≤ (i 0).val ∧ (i 0).val < win1_1.index t (0 : Fin 2) * 1 + 1; rw [e2]; omega
  | ⟨1, _⟩ => show win1_1.index t (1 : Fin 2) * 128 ≤ (i 1).val ∧ (i 1).val < win1_1.index t (1 : Fin 2) * 128 + 128; rw [e3]; omega

theorem cover2 (i : S1x128.Idx) :
    ∃ t : Fin cfg1.N, (cfg1.win 2).flush t = true ∧ i ∈ ((cfg1.win 2).blk t).view.set := by
  have hi0 : (i 0).val < 1 := idx2_lt0 i
  have hi1 : (i 1).val < 128 := idx2_lt1 i
  have hN : cfg1.N = 20 := N_1
  let t : Fin cfg1.N := ⟨19, by rw [hN]; omega⟩
  obtain ⟨-, -, -, -, e4, e5⟩ := idx_facts t
  have ht : t.val = 19 := rfl
  refine ⟨t, (flush1_2 t).mpr (by rw [ht]), ?_⟩
  rw [mem_blk2]
  intro a
  match a with
  | ⟨0, _⟩ => show win1_2.index t (0 : Fin 2) * 1 ≤ (i 0).val ∧ (i 0).val < win1_2.index t (0 : Fin 2) * 1 + 1; rw [e4]; omega
  | ⟨1, _⟩ => show win1_2.index t (1 : Fin 2) * 128 ≤ (i 1).val ∧ (i 1).val < win1_2.index t (1 : Fin 2) * 128 + 128; rw [e5]; omega

/-- THE FIRST OUTPUT ARRAY after the region: the column sum of the array the region found. -/
theorem final1 (c : Dev nD) : (dat1 V c).arrAt 1 cfg1.N = colSum (arrA V c) :=
  (dat1 V c).arrAt_eq_of_cover 1 (colSum (arrA V c)) (fun t hf => flushed1_eq V c t hf) cover1

/-- THE SECOND OUTPUT ARRAY after the region: the column sum of squares. -/
theorem final2 (c : Dev nD) : (dat1 V c).arrAt 2 cfg1.N = colSumSq (arrA V c) :=
  (dat1 V c).arrAt_eq_of_cover 2 (colSumSq (arrA V c)) (fun t hf => flushed2_eq V c t hf) cover2

end Cert.KernelIdeal.Stats

end
-- ==== Proof.Normalize.lean ====
/-
  The last region: every row block of the aggregated features, scaled and shifted per feature, through tanh.

  Point `t` of the 20-point grid reads rows `5000 t … 5000 t + 4999` of the [100000, 128] array `A`, the
  two [1, 128] rows `sc` and `sh` (the same block at every point), and writes back rows `5000 t …` of the
  result: entry `(r, j)` of the block is `tanh (A (5000 t + r, j) · sc (0, j) + sh (0, j))`. Every point
  writes its block back and the 20 blocks tile the array, so the result array ends as the one function
  `normOut A sc sh` of the three arrays the region found.
-/
import proofs.«110681_j61323543053000_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Column `j` of a [1, 128] row. -/
abbrev row1 (j : Fin 128) : S1x128.Idx := ix2 (0 : Fin 1) j

/-- The result as one function of the region's three input arrays, index by index. -/
def normOut (A : S100000x128.Idx → Elt Ideal .f32) (sc sh : S1x128.Idx → Elt Ideal .f32) : S100000x128.Idx → Elt Ideal .f32 :=
  fun i => Ideal.tanh (A i * sc (row1 ⟨(i 1).val, idx2_lt1 i⟩) + sh (row1 ⟨(i 1).val, idx2_lt1 i⟩))

/-- The body's one stored value at entry `(p, q)` of the block: the row block's entry times the scale row's
    entry `q`, plus the shift row's, through tanh. -/
theorem pay_apply (x0 : Vec Ideal S5000x128 .f32) (x1 x2 : Vec Ideal S1x128 .f32) (p : Fin 5000) (q : Fin 128) :
    k2_pay1 x0 x1 x2 (ix2 p q) = Ideal.tanh (x0 (ix2 p q) * x1 (row1 q) + x2 (row1 q)) := by
  unfold k2_pay1
  simp only [shapeCast_self]
  show Ideal.tanh (x0 (ix2 p q) * broadcastTo S5000x128 x1 broadcasts_S1x128_S5000x128 (ix2 p q)
    + broadcastTo S5000x128 x2 broadcasts_S1x128_S5000x128 (ix2 p q)) = _
  rw [broadcastTo_1b_ab_apply, broadcastTo_1b_ab_apply]

/-- The same at a block index `y` that sits at array index `i`: when the row block's entry at `y` is `A i`
    and the two rows are `sc`, `sh`, the stored value at `y` is `normOut A sc sh i`. -/
theorem pay_at (x0 : Vec Ideal S5000x128 .f32) (x1 x2 : Vec Ideal S1x128 .f32)
    (A : S100000x128.Idx → Elt Ideal .f32) (sc sh : S1x128.Idx → Elt Ideal .f32)
    (y : S5000x128.Idx) (i : S100000x128.Idx) (hcol : (y 1).val = (i 1).val)
    (h0 : x0 y = A i) (h1 : x1 = sc) (h2 : x2 = sh) :
    k2_pay1 x0 x1 x2 y = normOut A sc sh i := by
  subst h1 h2
  obtain ⟨p, q, rfl⟩ : ∃ (p : Fin 5000) (q : Fin 128), y = ix2 p q := ⟨y 0, y 1, eq_ix2 y⟩
  rw [pay_apply, h0]
  unfold normOut
  have e : (⟨(i 1).val, idx2_lt1 i⟩ : Fin 128) = q := Fin.ext hcol.symm
  rw [e]

/-- The printed index maps over the grid: the row-block windows (input 0, output 3) sit at block `(t, 0)`, the
    two row windows at block `(0, 0)`. -/
theorem idx_facts : ∀ t : Fin cfg2.N, win2_0.index t (0 : Fin 2) = t.val ∧ win2_0.index t (1 : Fin 2) = 0
    ∧ win2_3.index t (0 : Fin 2) = t.val ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- A row window's block IS its array. -/
theorem iblk_row1 (c : Dev nD) (t : Fin cfg2.N) : (iblk2 V c 1 t : Vec Ideal S1x128 .f32) = V c main_v26 := by
  obtain ⟨-, -, -, -, e4, e5, -, -⟩ := idx_facts t
  funext y
  show V c main_v26 (((cfg2.win 1).blk t).view.emb y) = V c main_v26 y
  refine congrArg _ (funext fun a => Fin.ext ?_)
  match a with
  | ⟨0, _⟩ => show win2_1.index t (0 : Fin 2) * 1 + 1 * (y 0).val = (y 0).val; rw [e4]; omega
  | ⟨1, _⟩ => show win2_1.index t (1 : Fin 2) * 128 + 1 * (y 1).val = (y 1).val; rw [e5]; omega

theorem iblk_row2 (c : Dev nD) (t : Fin cfg2.N) : (iblk2 V c 2 t : Vec Ideal S1x128 .f32) = V c main_v31 := by
  obtain ⟨-, -, -, -, -, -, e6, e7⟩ := idx_facts t
  funext y
  show V c main_v31 (((cfg2.win 2).blk t).view.emb y) = V c main_v31 y
  refine congrArg _ (funext fun a => Fin.ext ?_)
  match a with
  | ⟨0, _⟩ => show win2_2.index t (0 : Fin 2) * 1 + 1 * (y 0).val = (y 0).val; rw [e6]; omega
  | ⟨1, _⟩ => show win2_2.index t (1 : Fin 2) * 128 + 1 * (y 1).val = (y 1).val; rw [e7]; omega

/-- WHAT POINT `t` WRITES BACK is block `t` of `normOut` of the arrays as the region finds them. -/
theorem flushed_eq (c : Dev nD) (t : Fin cfg2.N) :
    (dat2 V c).flushed 3 t
      = ((cfg2.win 3).blk t).view.read (Elt Ideal) (normOut (V c main_v14) (V c main_v26) (V c main_v31)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  obtain ⟨e0, e1, e2, e3, -, -, -, -⟩ := idx_facts t
  funext j
  refine pay_at _ _ _ (V c main_v14) (V c main_v26) (V c main_v31) j (((cfg2.win 3).blk t).view.emb j) ?_ ?_
    (iblk_row1 V c t) (iblk_row2 V c t)
  · show (j 1).val = win2_3.index t (1 : Fin 2) * 128 + 1 * (j 1).val
    rw [e3]; omega
  · show V c main_v14 (((cfg2.win 0).blk t).view.emb j) = V c main_v14 (((cfg2.win 3).blk t).view.emb j)
    refine congrArg _ (funext fun a => Fin.ext ?_)
    match a with
    | ⟨0, _⟩ => show win2_0.index t (0 : Fin 2) * 5000 + 1 * (j 0).val = win2_3.index t (0 : Fin 2) * 5000 + 1 * (j 0).val; rw [e0, e2]
    | ⟨1, _⟩ => show win2_0.index t (1 : Fin 2) * 128 + 1 * (j 1).val = win2_3.index t (1 : Fin 2) * 128 + 1 * (j 1).val; rw [e1, e3]

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v32).slice (win2_3.rect t)).set ↔ _
  rw [View.set_slice_whole, Rect.mem_set_unit]
  exact Iff.rfl

/-- Row `r` is in the block of point `r / 5000`: the 20 blocks tile the array. -/
theorem cover (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 20 := N_2
  let t : Fin cfg2.N := ⟨(i 0).val / 5000, by rw [hN]; omega⟩
  obtain ⟨-, -, e2, e3, -, -, -, -⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e2, ht]; omega
  | ⟨1, _⟩ => show win2_3.index t (1 : Fin 2) * 128 ≤ (i 1).val ∧ (i 1).val < win2_3.index t (1 : Fin 2) * 128 + 128; rw [e3]; omega

/-- THE RESULT ARRAY after the region: `normOut` of the three arrays the region found. -/
theorem final (c : Dev nD) :
    (dat2 V c).arrAt 3 cfg2.N = normOut (V c main_v14) (V c main_v26) (V c main_v31) :=
  (dat2 V c).arrAt_eq_of_cover 3 _ (fun t _ => flushed_eq V c t) cover

end Cert.KernelIdeal.Norm

end
-- ==== Proof.HostSide.lean ====
/-
  The idealized program's result array as one function of its eight arguments.

  Read from the return backwards: the result array is what the last region's write-backs leave, `normOut` of
  the aggregated features `A` and of the scale and shift rows; those two rows are host arithmetic on the column
  sum and column sum of squares of `A`, which the middle region leaves; `A` is the host's gather, weighting
  and scatter-add of the projected features, which the first region leaves as the whole product of `seq` with
  the transposed weights. No host operation and no region writes an argument, so each is read back as launched.
-/
import proofs.«110681_j61323543053000_1_alg».proof.Proof.Project
import proofs.«110681_j61323543053000_1_alg».proof.Proof.Stats
import proofs.«110681_j61323543053000_1_alg».proof.Proof.Normalize
import Idealize.ShloMosaic.Lib.StableHlo.Run
import Idealize.ShloMosaic.Lib.Tactic

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.Tactic Idealize.ShloMosaic.StableHlo

/-! ## The host stretches as functions -/

/-- The aggregation between the first two regions: rows of `h` gathered at the source indices (negative ones
    wrapped once by the row count, then clamped by the gather), weighted per edge, and summed into the rows the
    destination indices name (an index outside the array contributes nothing). -/
def agg (h : S100000x128.Idx → Elt Ideal .f32) (ew : S1600000.Idx → Elt Ideal .f32) (src dst : IVec S1600000 32) :
    S100000x128.Idx → Elt Ideal .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The row count as a [1, 128] row. -/
def nRow : FVec Ideal S1x128 .f32 :=
  broadcastInDim S1x128 ![] bcast_S_S1x128 (constant (F := Ideal) S_ .f32 0x47C35000#32)

/-- The scale row: `γ · rsqrt (s2 / n - (s1 / n)² + ε)`. -/
def scaleRow (s1 s2 : FVec Ideal S1x128 .f32) (g : FVec Ideal S128 .f32) : FVec Ideal S1x128 .f32 :=
  mulf (broadcastInDim S1x128 ![1] bcast_S128_S1x128_1 g)
    (Host.rsqrt (addf (subf (Host.divf s2 nRow) (mulf (Host.divf s1 nRow) (Host.divf s1 nRow)))
      (broadcastInDim S1x128 ![] bcast_S_S1x128 (constant (F := Ideal) S_ .f32 0x3727C5AC#32))))

/-- The shift row: `(β + b) - (s1 / n) · scale`. -/
def shiftRow (s1 s2 : FVec Ideal S1x128 .f32) (g be bi : FVec Ideal S128 .f32) : FVec Ideal S1x128 .f32 :=
  subf (addf (broadcastInDim S1x128 ![1] bcast_S128_S1x128_1 be) (broadcastInDim S1x128 ![1] bcast_S128_S1x128_1 bi))
    (mulf (Host.divf s1 nRow) (scaleRow s1 s2 g))

/-! ## The two rows at an index -/

abbrev nW : EReal := Ideal.ofBits .f32 0x47C35000#32
abbrev epsW : EReal := Ideal.ofBits .f32 0x3727C5AC#32

theorem bcast_row_apply (x : S128.Idx → Elt Ideal .f32) (q : Fin 128) :
    broadcastInDim S1x128 ![1] bcast_S128_S1x128_1 x (Norm.row1 q) = x (ix1 q) :=
  broadcastInDim_apply _ bcast_S128_S1x128_1 x (Norm.row1 q) (ix1 q) (fun a => match a with
    | ⟨0, _⟩ => by show q.val = if (128 : Nat) = 1 then 0 else q.val; rw [if_neg (by decide)])

theorem scale_apply (s1 s2 : S1x128.Idx → Elt Ideal .f32) (g : S128.Idx → Elt Ideal .f32) (q : Fin 128) :
    scaleRow s1 s2 g (Norm.row1 q)
      = g (ix1 q) * Ideal.rsqrt ((Ideal.div (s2 (Norm.row1 q)) nW
          - Ideal.div (s1 (Norm.row1 q)) nW * Ideal.div (s1 (Norm.row1 q)) nW) + epsW) := by
  show broadcastInDim S1x128 ![1] bcast_S128_S1x128_1 g (Norm.row1 q) * _ = _
  rw [bcast_row_apply]
  rfl

theorem shift_apply (s1 s2 : S1x128.Idx → Elt Ideal .f32) (g be bi : S128.Idx → Elt Ideal .f32) (q : Fin 128) :
    shiftRow s1 s2 g be bi (Norm.row1 q)
      = (be (ix1 q) + bi (ix1 q)) - Ideal.div (s1 (Norm.row1 q)) nW * scaleRow s1 s2 g (Norm.row1 q) := by
  show (broadcastInDim S1x128 ![1] bcast_S128_S1x128_1 be (Norm.row1 q)
      + broadcastInDim S1x128 ![1] bcast_S128_S1x128_1 bi (Norm.row1 q)) - _ = _
  rw [bcast_row_apply, bcast_row_apply]
  rfl

/-! ## The fold through @main, read back -/

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The transposed weights, as the first region finds them. -/
theorem W1_v0 (c : Dev nD) : W1 m ρ c (Proc.devRef .tc main_v0)
    = transpose S256x128 [1, 0] (m ((c : Thread nD τ).loc main_arg1)) transposes_S128x256_S256x128_1_0 := by
  show StableHlo.after hostOps0 (W0 m ρ c) (Proc.devRef .tc main_v0) = _
  after_results

/-- The projected features after the first region: the whole product. -/
theorem W2_v1 (c : Dev nD) : W2 m ρ c (Proc.devRef .tc main_v1)
    = Proj.proj (m ((c : Thread nD τ).loc main_arg0))
        (transpose S256x128 [1, 0] (m ((c : Thread nD τ).loc main_arg1)) transposes_S128x256_S256x128_1_0) := by
  refine (W2_arr m ρ c 2).trans ((Proj.final (V1 m ρ) c).trans ?_)
  show Proj.proj (W1 m ρ c (Proc.devRef .tc main_arg0)) (W1 m ρ c (Proc.devRef .tc main_v0)) = _
  rw [W1_arg0, W1_v0]

/-- The aggregated features the middle and last regions read. -/
abbrev aggK (c : Dev nD) : S100000x128.Idx → Elt Ideal .f32 :=
  agg (Proj.proj (m ((c : Thread nD τ).loc main_arg0))
      (transpose S256x128 [1, 0] (m ((c : Thread nD τ).loc main_arg1)) transposes_S128x256_S256x128_1_0))
    (m ((c : Thread nD τ).loc main_arg5)) (m ((c : Thread nD τ).loc main_arg6)) (m ((c : Thread nD τ).loc main_arg7))

theorem W3_v14 (c : Dev nD) : W3 m ρ c (Proc.devRef .tc main_v14) = aggK m c := by
  show StableHlo.after hostOps1 (W2 m ρ c) (Proc.devRef .tc main_v14) = _
  after_results
  show agg (W2 m ρ c (Proc.devRef .tc main_v1)) (W2 m ρ c (Proc.devRef .tc main_arg5))
    (W2 m ρ c (Proc.devRef .tc main_arg6)) (W2 m ρ c (Proc.devRef .tc main_arg7)) = _
  rw [W2_v1, W2_arg5, W2_arg6, W2_arg7]

/-- The middle region does not write the array it reads. -/
theorem W4_v14 (c : Dev nD) : W4 m ρ c (Proc.devRef .tc main_v14) = aggK m c :=
  (W4_arr m ρ c 0).trans ((((dat1 (V3 m ρ) c).arrAt_in 0 rfl _).trans (A_eq1 (V3 m ρ) c 0)).trans (W3_v14 m ρ c))

theorem W4_sum (c : Dev nD) : W4 m ρ c (Proc.devRef .tc main_v15_0) = Stats.colSum (aggK m c) := by
  refine (W4_arr m ρ c 1).trans ((Stats.final1 (V3 m ρ) c).trans ?_)
  show Stats.colSum (W3 m ρ c (Proc.devRef .tc main_v14)) = _
  rw [W3_v14]

theorem W4_sumsq (c : Dev nD) : W4 m ρ c (Proc.devRef .tc main_v15_1) = Stats.colSumSq (aggK m c) := by
  refine (W4_arr m ρ c 2).trans ((Stats.final2 (V3 m ρ) c).trans ?_)
  show Stats.colSumSq (W3 m ρ c (Proc.devRef .tc main_v14)) = _
  rw [W3_v14]

theorem W5_v14 (c : Dev nD) : W5 m ρ c (Proc.devRef .tc main_v14) = aggK m c :=
  (StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v14 m ρ c)

/-- The scale and shift rows the last region reads. -/
abbrev scaleK (c : Dev nD) : S1x128.Idx → Elt Ideal .f32 :=
  scaleRow (Stats.colSum (aggK m c)) (Stats.colSumSq (aggK m c)) (m ((c : Thread nD τ).loc main_arg2))
abbrev shiftK (c : Dev nD) : S1x128.Idx → Elt Ideal .f32 :=
  shiftRow (Stats.colSum (aggK m c)) (Stats.colSumSq (aggK m c)) (m ((c : Thread nD τ).loc main_arg2))
    (m ((c : Thread nD τ).loc main_arg3)) (m ((c : Thread nD τ).loc main_arg4))

set_option maxHeartbeats 1000000 in
theorem W5_v26 (c : Dev nD) : W5 m ρ c (Proc.devRef .tc main_v26) = scaleK m c := by
  show StableHlo.after hostOps2 (W4 m ρ c) (Proc.devRef .tc main_v26) = _
  after_results
  show scaleRow (W4 m ρ c (Proc.devRef .tc main_v15_0)) (W4 m ρ c (Proc.devRef .tc main_v15_1))
    (W4 m ρ c (Proc.devRef .tc main_arg2)) = _
  rw [W4_sum, W4_sumsq, W4_arg2]

set_option maxHeartbeats 2000000 in
theorem W5_v31 (c : Dev nD) : W5 m ρ c (Proc.devRef .tc main_v31) = shiftK m c := by
  show StableHlo.after hostOps2 (W4 m ρ c) (Proc.devRef .tc main_v31) = _
  after_results
  show shiftRow (W4 m ρ c (Proc.devRef .tc main_v15_0)) (W4 m ρ c (Proc.devRef .tc main_v15_1))
    (W4 m ρ c (Proc.devRef .tc main_arg2)) (W4 m ρ c (Proc.devRef .tc main_arg3)) (W4 m ρ c (Proc.devRef .tc main_arg4)) = _
  rw [W4_sum, W4_sumsq, W4_arg2, W4_arg3, W4_arg4]

/-- THE RESULT ARRAY at the return, as a function of the launch memory's eight arguments. -/
theorem result_eq (c : Dev nD) :
    W6 m ρ c (Proc.devRef .tc main_v32) = Norm.normOut (aggK m c) (scaleK m c) (shiftK m c) := by
  refine (W6_arr m ρ c 3).trans ((Norm.final (V5 m ρ) c).trans ?_)
  show Norm.normOut (W5 m ρ c (Proc.devRef .tc main_v14)) (W5 m ρ c (Proc.devRef .tc main_v26))
    (W5 m ρ c (Proc.devRef .tc main_v31)) = _
  rw [W5_v14, W5_v26, W5_v31]

end Cert.KernelIdeal.HostSide

end
-- ==== Proof.Algebra.lean ====
/-
  The algebra that joins the two programs, over the extended reals.

  Fix one feature column. Its entries `x k` (one per row `k`) are real numbers. Both programs subtract the
  column's mean `μ = (∑ x) / n`, divide by the square root of its variance plus a positive epsilon, scale by
  `γ` and shift by `β + b`, and apply tanh. They differ in two ways:

  * the variance: one program takes `(∑ x²) / n - μ²`, the other `(∑ (x - μ)²) / n`. For real entries and
    `n` the number of rows these are one number (expand the square; `∑ μ² = n μ²`). It is a sum of squares
    over a positive count, so it is nonnegative, the radicand is positive, and the reciprocal square root is a
    real number;
  * the affine step: one program forms `x (γ s) + ((β + b) - μ (γ s))`, the other `((γ (x - μ)) s + β) + b`.
    With every quantity real these are equal by the ring laws.

  On the extended reals neither law holds at an infinity (`∞ - ∞`), which is why the entries must be real.
-/
import Idealize.ShloMosaic.PureOps.Ideal

noncomputable section

namespace Cert.Alg

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two forms of the variance of real entries, `n` the number of entries. -/
theorem var_real {ι : Type*} [Fintype ι] (a : ι → ℝ) (n : ℝ) (hc : (Fintype.card ι : ℝ) = n) (hn : n ≠ 0) :
    (∑ k, (a k - (∑ k, a k) * (1 / n)) * (a k - (∑ k, a k) * (1 / n))) * (1 / n)
      = (∑ k, a k * a k) * (1 / n) - ((∑ k, a k) * (1 / n)) * ((∑ k, a k) * (1 / n)) := by
  generalize hS : ∑ k, a k = S
  generalize hμ : S * (1 / n) = μ
  have h : ∑ k, (a k - μ) * (a k - μ) = ∑ k, a k * a k - 2 * μ * S + n * (μ * μ) := by
    have e : ∀ k, (a k - μ) * (a k - μ) = a k * a k - 2 * μ * a k + μ * μ := fun k => by ring
    simp only [e, Finset.sum_add_distrib, Finset.sum_sub_distrib, ← Finset.mul_sum, Finset.sum_const,
      Finset.card_univ, nsmul_eq_mul, hc, hS]
    ring
  rw [h, ← hμ]
  field_simp
  ring

/-- The reciprocal square root of a positive real is a real. -/
theorem rsqrt_coe_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

/-- THE JOINING LAW, at one entry `xi` of a column `x` of real entries: the normalisation through the raw
    second moment and a precomputed scale and shift is the normalisation through the centred second moment.
    `s1`, `s2` are the column's sum and its sum of squares as one program accumulates them; the other's sums
    carry their initial value `0`. -/
theorem norm_eq {ι : Type*} [Fintype ι] (x : ι → EReal) (hx : ∀ k, IsReal (x k)) (xi g be bi eps nE s1 s2 : EReal)
    (hxi : IsReal xi) (hg : IsReal g) (hbe : IsReal be) (hbi : IsReal bi)
    (heps : ∃ e : ℝ, 0 < e ∧ eps = (e : EReal))
    (n : ℝ) (hnE : nE = (n : EReal)) (hc : (Fintype.card ι : ℝ) = n) (hn : 0 < n)
    (hs1 : s1 = ∑ k, x k) (hs2 : s2 = ∑ k, x k * x k) :
    Ideal.tanh (xi * (g * Ideal.rsqrt ((Ideal.div s2 nE - Ideal.div s1 nE * Ideal.div s1 nE) + eps))
        + ((be + bi) - Ideal.div s1 nE * (g * Ideal.rsqrt ((Ideal.div s2 nE - Ideal.div s1 nE * Ideal.div s1 nE) + eps))))
      = Ideal.tanh (((g * (xi - Ideal.div (0 + ∑ k, x k) nE))
          * Ideal.rsqrt (Ideal.div (0 + ∑ k, (x k - Ideal.div (0 + ∑ k, x k) nE) * (x k - Ideal.div (0 + ∑ k, x k) nE)) nE + eps)
          + be) + bi) := by
  choose a ha using hx
  obtain ⟨xr, rfl⟩ := hxi
  obtain ⟨gr, rfl⟩ := hg
  obtain ⟨ber, rfl⟩ := hbe
  obtain ⟨bir, rfl⟩ := hbi
  obtain ⟨e, he, rfl⟩ := heps
  have hn0 : n ≠ 0 := hn.ne'
  subst hnE hs1 hs2
  simp only [ha, zero_add, Ideal.div_coe hn0, ← coe_sum, ← EReal.coe_mul, ← EReal.coe_sub, ← EReal.coe_add]
  have hv := var_real a n hc hn0
  have hpos : 0 < (∑ k, (a k - (∑ k, a k) * (1 / n)) * (a k - (∑ k, a k) * (1 / n))) * (1 / n) + e :=
    add_pos_of_nonneg_of_pos
      (mul_nonneg (Finset.sum_nonneg fun k _ => mul_self_nonneg _) (by positivity)) he
  rw [← hv, rsqrt_coe_pos _ hpos]
  simp only [← EReal.coe_mul, ← EReal.coe_sub, ← EReal.coe_add]
  refine congrArg Ideal.tanh (congrArg _ ?_)
  ring

end Cert.Alg

end
-- ==== Proof.Finite.lean ====
/-
  What the precondition says: every entry of the six float inputs is a real number.

  The precondition is the conjunction, over the six float arrays, of "every entry's absolute value is below
  +∞". On the extended reals `max x (-x) < ⊤` excludes exactly `⊤` and `⊥`, so each entry is a real.
-/
import proofs.«110681_j61323543053000_1_alg».proof.Pre_finite_inputs
import proofs.«110681_j61323543053000_1_alg».proof.Proof.Algebra
import Idealize.ShloMosaic.Lib.ReduceAll
import Idealize.ShloMosaic.Lib.ValueIdx
import Idealize.ShloMosaic.PureOps.Ideal.Laws

set_option maxRecDepth 16384

noncomputable section

namespace Cert.Pre_finite_inputs.Decode

open Cert.Pre_finite_inputs Idealize.ShloMosaic Cert.Alg

variable [Facts]
open Facts

instance : Subsingleton S_.Idx := ⟨fun a b => funext fun d => d.elim0⟩

/-- The word of +∞ denotes `⊤`. -/
theorem inf_word : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    IsReal x := by
  rw [inf_word] at h
  induction x with
  | bot => exfalso; simp [Ideal.cmp] at h
  | coe r => exact ⟨r, rfl⟩
  | top => exfalso; simp [Ideal.cmp] at h

/-- One array's conjunct: `jnp.all (|v| < inf)` makes every entry of `v` real. -/
theorem real_of_all {s : Shape} {axes : List (Fin s.rank)} (v : FVec Ideal s .f32)
    (bc : S_.BroadcastsInDim s (![] : Fin 0 → Fin s.rank)) (hr : s.ReducesTo axes S_)
    (e : Host.reduce IntOp.andi (cmpf .olt (Host.absf v) (broadcastInDim s ![] bc (constant (F := Ideal) S_ .f32 0x7F800000#32)))
      (constantI S_ 1 1#1) hr h_S_ ValueIdx.ix0 = 1#1) (i : s.Idx) : IsReal (v i) :=
  real_of_abs_lt (v i) (Host.reduce_andi_all _ _ hr h_S_ ValueIdx.ix0 e i)

/-- THE PRECONDITION DECODED: each of the six float arrays has only real entries. -/
theorem finite_of_pre (a0 : FVec Ideal S100000x256 .f32) (a1 : FVec Ideal S128x256 .f32) (a2 a3 a4 : FVec Ideal S128 .f32)
    (a5 : FVec Ideal S1600000 .f32) (a6 a7 : IVec S1600000 32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ValueIdx.ix0
  dsimp only [fn, fn_part1] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ h0', real_of_all a1 _ _ h1, real_of_all a2 _ _ h2, real_of_all a3 _ _ h3,
    real_of_all a4 _ _ h4, real_of_all a5 _ _ h5⟩

end Cert.Pre_finite_inputs.Decode

end
-- ==== Proof.RefSide.lean ====
/-
  The reference, read at an index.

  With `A` the aggregated features ([100000, 128]), the reference takes, per feature column `q`: the mean
  `(0 + ∑ₖ A (k, q)) / n`; the variance `(0 + ∑ₖ (A (k, q) - mean)²) / n`; and at row `p`
  `tanh (((γ q · (A (p, q) - mean)) · rsqrt (variance + ε) + β q) + b q)`. The generated read-at-an-index lemmas
  give each stage at an index from its operands; here they are chained into the three formulas.
-/
import proofs.«110681_j61323543053000_1_alg».proof.Proof.Gen.ReferenceIdeal.Read
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- A column's mean: its sum from zero, over the row count. -/
def meanOf (A : S100000x128.Idx → EReal) (q : Fin 128) : EReal :=
  Ideal.div (0 + ∑ k : Fin 100000, A (ix2 k q)) (Ideal.ofBits .f32 0x47C35000#32)
/-- A column's variance through the centred entries. -/
def varOf (A : S100000x128.Idx → EReal) (q : Fin 128) : EReal :=
  Ideal.div (0 + ∑ k : Fin 100000, (A (ix2 k q) - meanOf A q) * (A (ix2 k q) - meanOf A q)) (Ideal.ofBits .f32 0x47C35000#32)
/-- The normalised, scaled, shifted entry through tanh. -/
def refOut (A : S100000x128.Idx → EReal) (g be bi : S128.Idx → EReal) (p : Fin 100000) (q : Fin 128) : EReal :=
  Ideal.tanh (((g (ix1 q) * (A (ix2 p q) - meanOf A q)) * Ideal.rsqrt (varOf A q + Ideal.ofBits .f32 0x3727C5AC#32)
    + be (ix1 q)) + bi (ix1 q))

variable (x0 : (⟨S100000x256, .f32⟩ : BufTy).Contents (Elt Ideal)) (x1 : (⟨S128x256, .f32⟩ : BufTy).Contents (Elt Ideal))
  (x2 x3 x4 : (⟨S128, .f32⟩ : BufTy).Contents (Elt Ideal)) (x5 : (⟨S1600000, .f32⟩ : BufTy).Contents (Elt Ideal)) (x6 x7 : (⟨S1600000, .i32⟩ : BufTy).Contents (Elt Ideal))

/-- The aggregated features as the reference computes them. -/
abbrev aggR : S100000x128.Idx → EReal := val_main_v14 (F := Ideal) x0 x1 x5 x6 x7

theorem idx15 (q : Fin 128) (k : Fin 100000) : idx_main_v15 (ix1 q) k = ix2 k q :=
  funext fun a => Fin.ext (by match a with | ⟨0, _⟩ => rfl | ⟨1, _⟩ => rfl)
theorem idx22 (q : Fin 128) (k : Fin 100000) : idx_main_v22 (ix1 q) k = ix2 k q :=
  funext fun a => Fin.ext (by match a with | ⟨0, _⟩ => rfl | ⟨1, _⟩ => rfl)
theorem idx1819 (p : Fin 100000) (q : Fin 128) : idx_main_v18 (idx_main_v19 (ix2 p q)) = ix1 q :=
  funext fun a => Fin.ext (by match a with | ⟨0, _⟩ => rfl)
theorem idx2526 (p : Fin 100000) (q : Fin 128) : idx_main_v25 (idx_main_v26 (ix2 p q)) = ix1 q :=
  funext fun a => Fin.ext (by match a with | ⟨0, _⟩ => rfl)
theorem idx2829 (p : Fin 100000) (q : Fin 128) : idx_main_v28 (idx_main_v29 (ix2 p q)) = ix1 q :=
  funext fun a => Fin.ext (by match a with | ⟨0, _⟩ => rfl)
theorem idx3435 (p : Fin 100000) (q : Fin 128) : idx_main_v34 (idx_main_v35 (ix2 p q)) = ix1 q :=
  funext fun a => Fin.ext (by match a with | ⟨0, _⟩ => rfl)
theorem idx3738 (p : Fin 100000) (q : Fin 128) : idx_main_v37 (idx_main_v38 (ix2 p q)) = ix1 q :=
  funext fun a => Fin.ext (by match a with | ⟨0, _⟩ => rfl)
theorem idx4041 (p : Fin 100000) (q : Fin 128) : idx_main_v40 (idx_main_v41 (ix2 p q)) = ix1 q :=
  funext fun a => Fin.ext (by match a with | ⟨0, _⟩ => rfl)

/-- The mean stage at column `q`. -/
theorem mean_apply (q : Fin 128) :
    val_main_v17 (F := Ideal) x0 x1 x5 x6 x7 (ix1 q) = meanOf (aggR x0 x1 x5 x6 x7) q := by
  rw [val_main_v17_apply, val_main_v15_apply, val_main_v16_apply, val_main_cst_2_apply, val_main_cst_1_apply]
  unfold meanOf
  simp only [Ideal.hostDivf_def, Ideal.ofBits_def, Ideal.ofBits_zero_f32, idx15]

/-- The centred entry at `(k, q)`. -/
theorem centred_apply (k : Fin 100000) (q : Fin 128) :
    val_main_v20 (F := Ideal) x0 x1 x5 x6 x7 (ix2 k q)
      = aggR x0 x1 x5 x6 x7 (ix2 k q) - meanOf (aggR x0 x1 x5 x6 x7) q := by
  rw [val_main_v20_apply, val_main_v19_apply, val_main_v18_apply, idx1819, mean_apply, Ideal.subf_def]

/-- The variance stage at column `q`. -/
theorem var_apply (q : Fin 128) :
    val_main_v24 (F := Ideal) x0 x1 x5 x6 x7 (ix1 q) = varOf (aggR x0 x1 x5 x6 x7) q := by
  rw [val_main_v24_apply, val_main_v22_apply, val_main_v23_apply, val_main_cst_4_apply, val_main_cst_3_apply,
    Ideal.hostDivf_def, Ideal.ofBits_def, Ideal.ofBits_def, Ideal.ofBits_zero_f32]
  unfold varOf
  refine congrArg (fun s : EReal => Ideal.div (0 + s) (Ideal.ofBits .f32 0x47C35000#32)) (Finset.sum_congr rfl fun k _ => ?_)
  rw [idx22, val_main_v21_apply, centred_apply, Ideal.mulf_def]

/-- The reciprocal standard deviation at column `q`. -/
theorem inv_apply (q : Fin 128) :
    val_main_v33 (F := Ideal) x0 x1 x5 x6 x7 (ix1 q)
      = Ideal.rsqrt (varOf (aggR x0 x1 x5 x6 x7) q + Ideal.ofBits .f32 0x3727C5AC#32) := by
  rw [val_main_v33_apply, val_main_v32_apply, val_main_v31_apply, val_main_cst_5_apply, var_apply,
    Ideal.hostUnary_rsqrt_def, Ideal.addf_def, Ideal.ofBits_def]

/-- THE REFERENCE'S RESULT at `(p, q)`. -/
theorem ref_apply (p : Fin 100000) (q : Fin 128) :
    val_main_v43 (F := Ideal) x0 x1 x2 x3 x4 x5 x6 x7 (ix2 p q) = refOut (aggR x0 x1 x5 x6 x7) x2 x3 x4 p q := by
  rw [val_main_v43_apply, val_main_v42_apply, val_main_v39_apply, val_main_v36_apply, val_main_v30_apply,
    val_main_v29_apply, val_main_v28_apply, val_main_v27_apply, val_main_v26_apply, val_main_v25_apply,
    val_main_v35_apply, val_main_v34_apply, val_main_v38_apply, val_main_v37_apply, val_main_v41_apply, val_main_v40_apply,
    idx2829, idx2526, idx3435, idx3738, idx4041, mean_apply, inv_apply]
  unfold refOut
  simp only [Ideal.hostUnary_tanh_def, Ideal.addf_def, Ideal.mulf_def, Ideal.subf_def]

end Cert.ReferenceIdeal.RefValue

end
-- ==== Proof.FiniteOps.lean ====
/-
  Operations that keep "every entry is a real number", at the extended reals.

  A gather, a broadcast and a transpose only re-read entries of their operand; an entrywise product of reals is
  real; the scatter-add is, at each entry, the operand's entry plus a finite sum of update entries, so it is real
  when the operand and the updates are. With these the aggregated features are real whenever the projected
  features and the edge weights are, and the projected features are finite sums of products of inputs.
-/
import proofs.«110681_j61323543053000_1_alg».proof.Proof.Algebra
import Idealize.ShloMosaic.PureOps.Ideal
import Idealize.ShloMosaic.PureOps.Ideal.Laws
import Idealize.ShloMosaic.PureOps.Contract

noncomputable section

namespace Cert.Alg

open Idealize.ShloMosaic

variable {α : Type}

theorem broadcastInDim_all {s t : Shape} (dims : Fin s.rank → Fin t.rank) (h : s.BroadcastsInDim t dims)
    (x : s.Idx → EReal) (hx : ∀ k, IsReal (x k)) (j : t.Idx) : IsReal (broadcastInDim t dims h x j) := by
  unfold broadcastInDim
  exact hx _

theorem transpose_all {s t : Shape} (perm : List (Fin s.rank)) (x : s.Idx → EReal) (h : s.Transposes perm t)
    (hx : ∀ k, IsReal (x k)) (j : t.Idx) : IsReal (transpose t perm x h j) := by
  unfold transpose
  exact hx _

theorem gather_all {s si t : Shape} {w : Nat} (d : GatherDims s si t) (x : s.Idx → EReal) (idx : IVec si w)
    (hx : ∀ k, IsReal (x k)) (j : t.Idx) : IsReal (Host.gather d x idx j) := by
  unfold Host.gather
  exact hx _

theorem mulf_all {s : Shape} (a b : FVec Ideal s .f32) (ha : ∀ k, IsReal (a k)) (hb : ∀ k, IsReal (b k)) (j : s.Idx) :
    IsReal (mulf a b j) := by
  show IsReal (a j * b j)
  exact (ha j).mul (hb j)

theorem zero_all {s : Shape} (j : s.Idx) : IsReal (constant (F := Ideal) s .f32 0x00000000#32 j) := by
  show IsReal (Ideal.ofBits .f32 0x00000000#32)
  rw [Ideal.ofBits_zero_f32]
  exact IsReal.zero

theorem scatterAdd_all {s si su : Shape} {w : Nat} (d : ScatterDims s si su) (x : FVec Ideal s .f32) (idx : IVec si w)
    (upd : FVec Ideal su .f32) (hx : ∀ k, IsReal (x k)) (hu : ∀ k, IsReal (upd k)) (i : s.Idx) :
    IsReal (Host.scatterAdd d x idx upd i) := by
  show IsReal (x i + ∑ j ∈ Finset.univ.filter (fun j => d.resultIdx? j idx = some i), upd j)
  exact (hx i).add (IsReal.sum _ _ fun j _ => hu j)

end Cert.Alg

end
-- ==== Proof.Consts.lean ====
/-
  The three float constants of the two programs whose values the equivalence uses, as the extended reals their
  bit patterns denote: the row count 100000.0 (the divisor of both means), and the batch-norm epsilon, of
  which only this matters: it is a positive real number.
-/
import Idealize.ShloMosaic.PureOps.Ideal

noncomputable section

namespace Cert.Consts

open Idealize.ShloMosaic

/-- `100000.0`, the number of rows, denotes the real `100000`. -/
theorem ofBits_rows : Ideal.ofBits .f32 0x47C35000#32 = ((100000 : ℝ) : EReal) := by
  simp [Ideal.ofBits, Ideal.ieee, -EReal.coe_mul]; norm_num

/-- The epsilon added to the variance denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.Bridge.lean ====
/-
  The two idealized programs compute one function of their arguments.

  * The projected features: the reference's `dot_general` of `seq` with the transposed weights is, entry by
    entry, the sum over the 256 input features of the products — the same sum the first region's blocks make up.
  * The aggregated features: both programs apply the same gather, weighting and scatter-add to the projected
    features, so they agree. Under the precondition every input entry is a real number, so every projected entry
    (a finite sum of products) and every aggregated entry (a finite sum of weighted gathered entries) is real.
  * The normalisation: at entry `(p, q)` the kernel's scale and shift rows, built from the column sum and the
    column sum of squares, give `x (γ s) + ((β + b) - μ (γ s))` with the variance `∑x²/n - μ²`; the reference
    gives `((γ (x - μ)) s + β) + b` with the variance `∑(x - μ)²/n`. For a column of real entries these are one
    number (the joining law), and tanh is applied to it on both sides.
-/
import proofs.«110681_j61323543053000_1_alg».proof.Proof.HostSide
import proofs.«110681_j61323543053000_1_alg».proof.Proof.RefSide
import proofs.«110681_j61323543053000_1_alg».proof.Proof.Algebra
import proofs.«110681_j61323543053000_1_alg».proof.Proof.FiniteOps
import proofs.«110681_j61323543053000_1_alg».proof.Proof.Consts

set_option maxRecDepth 16384

noncomputable section

namespace Cert.Proof.Bridge

open Cert.KernelIdeal Cert.KernelIdeal.Gen
open Idealize.ShloMosaic Idealize.ShloMosaic.TcCoe Idealize.ShloMosaic.ValueIdx
open Cert.Alg

/-! ## The normalisation at an entry, for ANY array of real entries -/

section Normalisation

variable (A : S100000x128.Idx → Elt Ideal .f32) (g be bi : S128.Idx → Elt Ideal .f32)

theorem normOut_apply (sc sh : S1x128.Idx → Elt Ideal .f32) (p : Fin 100000) (q : Fin 128) :
    Norm.normOut A sc sh (ix2 p q) = Ideal.tanh (A (ix2 p q) * sc (Norm.row1 q) + sh (Norm.row1 q)) := rfl

theorem colSum_apply (q : Fin 128) : Stats.colSum A (Norm.row1 q) = ∑ k : Fin 100000, A (ix2 k q) := rfl
theorem colSumSq_apply (q : Fin 128) :
    Stats.colSumSq A (Norm.row1 q) = ∑ k : Fin 100000, A (ix2 k q) * A (ix2 k q) := rfl

/-- The kernel's last region on the rows the host built from the two column sums IS the reference's
    normalisation, at every entry, when the array and the three per-feature vectors are real. -/
theorem value_at (hA : ∀ i, IsReal (A i)) (hg : ∀ i, IsReal (g i)) (hbe : ∀ i, IsReal (be i)) (hbi : ∀ i, IsReal (bi i))
    (p : Fin 100000) (q : Fin 128) :
    Norm.normOut A (HostSide.scaleRow (Stats.colSum A) (Stats.colSumSq A) g)
        (HostSide.shiftRow (Stats.colSum A) (Stats.colSumSq A) g be bi) (ix2 p q)
      = Cert.ReferenceIdeal.RefValue.refOut A g be bi p q := by
  rw [normOut_apply, HostSide.shift_apply, HostSide.scale_apply]
  unfold Cert.ReferenceIdeal.RefValue.refOut Cert.ReferenceIdeal.RefValue.varOf Cert.ReferenceIdeal.RefValue.meanOf
  exact Alg.norm_eq (fun k : Fin 100000 => A (ix2 k q)) (fun k => hA _) (A (ix2 p q)) (g (ix1 q)) (be (ix1 q)) (bi (ix1 q))
    HostSide.epsW HostSide.nW (Stats.colSum A (Norm.row1 q)) (Stats.colSumSq A (Norm.row1 q))
    (hA _) (hg _) (hbe _) (hbi _) Cert.Consts.ofBits_eps 100000 Cert.Consts.ofBits_rows (by simp) (by norm_num)
    (colSum_apply A q) (colSumSq_apply A q)

end Normalisation

/-! ## The projected and the aggregated features -/

section Features

variable (X : S100000x256.Idx → Elt Ideal .f32) (W : S128x256.Idx → Elt Ideal .f32)
  (ew : S1600000.Idx → Elt Ideal .f32) (src dst : IVec S1600000 32)

/-- The transposed weights. -/
abbrev wt : S256x128.Idx → Elt Ideal .f32 := transpose S256x128 [1, 0] W transposes_S128x256_S256x128_1_0

theorem wt_eq : Cert.ReferenceIdeal.Read.val_main_v0 (F := Ideal) W = wt W := rfl

/-- The reference's product of `seq` with the transposed weights is the kernel's, entry by entry. -/
theorem proj_eq : Cert.ReferenceIdeal.Read.val_main_v1 (F := Ideal) X W = Proj.proj X (wt W) := by
  funext i
  rw [Cert.ReferenceIdeal.Read.val_main_v1_apply, wt_eq]
  unfold Proj.proj
  refine Finset.sum_congr rfl fun k _ => ?_
  have el : Cert.ReferenceIdeal.Read.lidx_main_v1 i k = ix2 ⟨(i 0).val, idx2_lt0 i⟩ k :=
    funext fun a => Fin.ext (by match a with | ⟨0, _⟩ => rfl | ⟨1, _⟩ => rfl)
  have er : Cert.ReferenceIdeal.Read.ridx_main_v1 i k = ix2 k ⟨(i 1).val, idx2_lt1 i⟩ :=
    funext fun a => Fin.ext (by match a with | ⟨0, _⟩ => rfl | ⟨1, _⟩ => rfl)
  rw [el, er]

/-- Both programs aggregate by the same operations: for ANY projected features `h`. -/
theorem agg_shape (h : S100000x128.Idx → Elt Ideal .f32) :
    (Host.scatterAdd (F := Ideal) (φ := .f32) Cert.ReferenceIdeal.scatter_S100000x128_S1600000x1_S1600000x128_1_0_0_1 (Cert.ReferenceIdeal.Read.val_main_v12 (F := Ideal))
      (Cert.ReferenceIdeal.Read.val_main_v13 (F := Ideal) dst)
      (mulf (F := Ideal) (φ := .f32) (Host.gather (α := Ideal .f32) Cert.ReferenceIdeal.gather_S100000x128_S1600000x1_S1600000x128_1_0_n_n_0_1_1128 h (Cert.ReferenceIdeal.Read.val_main_v7 (F := Ideal) src))
        (Cert.ReferenceIdeal.Read.val_main_v10 (F := Ideal) ew)) : S100000x128.Idx → Elt Ideal .f32)
      = HostSide.agg h ew src dst := rfl

/-- The aggregated features of the reference are the kernel's. -/
theorem agg_eq : Cert.ReferenceIdeal.RefValue.aggR X W ew src dst = HostSide.agg (Proj.proj X (wt W)) ew src dst := by
  unfold Cert.ReferenceIdeal.RefValue.aggR Cert.ReferenceIdeal.Read.val_main_v14 Cert.ReferenceIdeal.Read.val_main_v11 Cert.ReferenceIdeal.Read.val_main_v8
  rw [proj_eq]
  exact agg_shape ew src dst _

/-- Every projected entry is a finite sum of products of real inputs. -/
theorem proj_real (hX : ∀ i, IsReal (X i)) (hW : ∀ i, IsReal (W i)) (i : S100000x128.Idx) :
    IsReal (Proj.proj X (wt W) i) := by
  unfold Proj.proj
  exact IsReal.sum _ _ fun k _ => (hX _).mul (transpose_all _ _ _ hW _)

/-- Every aggregated entry is zero plus a finite sum of weighted gathered entries: real. -/
theorem agg_real (h : S100000x128.Idx → Elt Ideal .f32) (hh : ∀ i, IsReal (h i)) (hew : ∀ i, IsReal (ew i))
    (i : S100000x128.Idx) : IsReal (HostSide.agg h ew src dst i) := by
  unfold HostSide.agg
  exact scatterAdd_all _ _ _ _ (fun k => broadcastInDim_all _ _ _ (fun k => zero_all k) k)
    (fun k => mulf_all _ _ (fun k => gather_all _ _ _ hh k)
      (fun k => broadcastInDim_all _ _ _ (fun k => broadcastInDim_all _ _ _ hew k) k) k) i

end Features

/-! ## The two results -/

/-- THE BRIDGE: the kernel's result array, as the fold through @main leaves it, is the reference's result
    term, for arguments whose float entries are all real. -/
theorem result_eq (X : S100000x256.Idx → Elt Ideal .f32) (W : S128x256.Idx → Elt Ideal .f32)
    (g be bi : S128.Idx → Elt Ideal .f32) (ew : S1600000.Idx → Elt Ideal .f32) (src dst : IVec S1600000 32)
    (hX : ∀ i, IsReal (X i)) (hW : ∀ i, IsReal (W i)) (hg : ∀ i, IsReal (g i)) (hbe : ∀ i, IsReal (be i))
    (hbi : ∀ i, IsReal (bi i)) (hew : ∀ i, IsReal (ew i)) :
    Cert.ReferenceIdeal.Read.val_main_v43 (F := Ideal) X W g be bi ew src dst
      = Norm.normOut (HostSide.agg (Proj.proj X (wt W)) ew src dst)
          (HostSide.scaleRow (Stats.colSum (HostSide.agg (Proj.proj X (wt W)) ew src dst))
            (Stats.colSumSq (HostSide.agg (Proj.proj X (wt W)) ew src dst)) g)
          (HostSide.shiftRow (Stats.colSum (HostSide.agg (Proj.proj X (wt W)) ew src dst))
            (Stats.colSumSq (HostSide.agg (Proj.proj X (wt W)) ew src dst)) g be bi) := by
  have hA : ∀ i, IsReal (HostSide.agg (Proj.proj X (wt W)) ew src dst i) :=
    agg_real ew src dst _ (proj_real X W hX hW) hew
  funext i
  obtain ⟨p, q, rfl⟩ : ∃ (p : Fin 100000) (q : Fin 128), i = ix2 p q := ⟨i 0, i 1, eq_ix2 i⟩
  rw [Cert.ReferenceIdeal.RefValue.ref_apply, agg_eq]
  generalize HostSide.agg (Proj.proj X (wt W)) ew src dst = A at hA ⊢
  exact (value_at A g be bi hA hg hbe hbi p q).symm

end Cert.Proof.Bridge

end
-- ==== Proof.lean ====
/-
  A graph layer: `tanh (BatchNorm (A · (seq · Wᵀ)) + b)`, where `A ·` is the weighted sum over edges (rows
  gathered at the source index, weighted, summed into the destination row) and the batch norm uses the batch's
  own mean and biased variance per feature.

  The kernel program runs three pipelined regions among host operations: the projection `seq · Wᵀ` in 20 row
  blocks; the per-feature sum and sum of squares of the aggregated features, accumulated over 20 row blocks; and
  the final affine map and tanh, again in 20 row blocks, with the scale `γ · rsqrt (∑x²/n - μ² + ε)` and the shift
  `(β + b) - μ · scale` computed on the host between the last two. The reference is the same layer written
  directly: `((γ (x - μ)) · rsqrt (∑(x - μ)²/n + ε) + β) + b` through tanh.

  The claims:
  * the three frames — the two kernel programs' are generated whole; the reference's is its generated run with the
    result dropped;
  * the idealization rewrote nothing, so there is nothing to preserve;
  * at the extended reals both programs end with equal results. The kernel's result array is read off the run as
    a function of the arguments (the three regions' write-backs and the host stretches between them); the
    reference's is its generated run's term. Under the precondition every float input entry is real, hence so is
    every aggregated entry, and for real entries the two forms of the variance and of the affine step coincide.
-/
import proofs.«110681_j61323543053000_1_alg».proof.Defs
import proofs.«110681_j61323543053000_1_alg».proof.Proof.Gen.Kernel
import proofs.«110681_j61323543053000_1_alg».proof.Proof.Gen.Kernel.Skeleton
import proofs.«110681_j61323543053000_1_alg».proof.Proof.Gen.Kernel.Launch
import proofs.«110681_j61323543053000_1_alg».proof.Proof.Gen.Kernel.Points
import proofs.«110681_j61323543053000_1_alg».proof.Proof.Gen.Kernel.Frame
import proofs.«110681_j61323543053000_1_alg».proof.Proof.Gen.KernelIdeal
import proofs.«110681_j61323543053000_1_alg».proof.Proof.Gen.KernelIdeal.Skeleton
import proofs.«110681_j61323543053000_1_alg».proof.Proof.Gen.KernelIdeal.Launch
import proofs.«110681_j61323543053000_1_alg».proof.Proof.Gen.KernelIdeal.Points
import proofs.«110681_j61323543053000_1_alg».proof.Proof.Gen.KernelIdeal.Frame
import proofs.«110681_j61323543053000_1_alg».proof.Proof.Gen.ReferenceIdeal
import proofs.«110681_j61323543053000_1_alg».proof.Proof.Gen.ReferenceIdeal.Run
import proofs.«110681_j61323543053000_1_alg».proof.Proof.Gen.ReferenceIdeal.Read
import proofs.«110681_j61323543053000_1_alg».proof.Proof.Gen.Pre_finite_inputs
import proofs.«110681_j61323543053000_1_alg».proof.Proof.NamedRun
import proofs.«110681_j61323543053000_1_alg».proof.Proof.HostSide
import proofs.«110681_j61323543053000_1_alg».proof.Proof.Finite
import proofs.«110681_j61323543053000_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the kernel's result array:
    the kernel by its run read through the regions and host stretches, the reference by its run's term, which
    is that array when every float input entry is real. -/
theorem algebraic : Cert.algebraic_KernelIdeal_ReferenceIdeal := by
  intro m ρ m' ρ' hpre hagree
  refine ⟨fun c => Cert.KernelIdeal.Norm.normOut (Cert.KernelIdeal.HostSide.aggK m c) (Cert.KernelIdeal.HostSide.scaleK m c) (Cert.KernelIdeal.HostSide.shiftK m c), ?_, ?_⟩
  · exact (θ_run Cert.KernelIdeal.defs _ _).mono
      (fun r h c => ⟨(h c).1.trans (Cert.KernelIdeal.HostSide.result_eq m ρ c), (h c).2⟩) (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := Cert.Pre_finite_inputs.Decode.finite_of_pre _ _ _ _ _ _ _ _ (hpre c)
    obtain ⟨a0, a1, a2, a3, a4, a5, a6, a7⟩ := hagree c
    rw [Cert.ReferenceIdeal.Read.val_main_v43_eq, a0, a1, a2, a3, a4, a5, a6, a7]
    exact Cert.Proof.Bridge.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
